-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000x128 : Shape := ⟨2, ![600000, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S2x600000 : Shape := ⟨2, ![2, 600000]⟩
abbrev S50000 : Shape := ⟨1, ![50000]⟩
abbrev S600000 : Shape := ⟨1, ![600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S256x128 .f32) (main_arg5 : FVec F S128 .f32) (main_arg6 : FVec F S128 .f32) (main_arg7 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_v33

def fn {F : FTy → Type} [FloatOps F] (main_arg0 : FVec F S50000x128 .f32) (main_arg1 : FVec F S600000x128 .f32) (main_arg2 : FVec F S128x256 .f32) (main_arg3 : FVec F S256 .f32) (main_arg4 : FVec F S256x128 .f32) (main_arg5 : FVec F S128 .f32) (main_arg6 : FVec F S128 .f32) (main_arg7 : FVec F S128 .f32) (main_arg8 : IVec S2x600000 32) (main_arg9 : IVec S50000 32) (main_arg10 : IVec S600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x128 .f32 := Host.absf main_arg1
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_v13 main_v16
-- ==== Kernel.lean ====
abbrev S50000x128 : Shape := ⟨2, ![50000, 128]⟩
abbrev S600000x128 : Shape := ⟨2, ![600000, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S2x600000 : Shape := ⟨2, ![2, 600000]⟩
abbrev S50000 : Shape := ⟨1, ![50000]⟩
abbrev S600000 : Shape := ⟨1, ![600000]⟩
abbrev S1x600000 : Shape := ⟨2, ![1, 600000]⟩
abbrev S_ : Shape := ⟨0, ![]⟩
abbrev S600000x1 : Shape := ⟨2, ![600000, 1]⟩
abbrev S8000x128 : Shape := ⟨2, ![8000, 128]⟩
abbrev S512 : Shape := ⟨1, ![512]⟩
abbrev S50000x1 : Shape := ⟨2, ![50000, 1]⟩
abbrev S2000x128 : Shape := ⟨2, ![2000, 128]⟩
abbrev S2000x1 : Shape := ⟨2, ![2000, 1]⟩
abbrev S2000x256 : Shape := ⟨2, ![2000, 256]⟩
abbrev S1x256 : Shape := ⟨2, ![1, 256]⟩
abbrev S1x128 : Shape := ⟨2, ![1, 128]⟩
abbrev S2000 : Shape := ⟨1, ![2000]⟩

abbrev nBuf : Space → Nat
  | .hbm => 50
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S128x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S2x600000, .i32⟩
  | .hbm, ⟨9, _⟩ => ⟨S50000, .i32⟩
  | .hbm, ⟨10, _⟩ => ⟨S600000, .i32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x128, .f32⟩
  | .hbm, ⟨24, _⟩ => ⟨S600000x128, .f32⟩
  | .hbm, ⟨25, _⟩ => ⟨S_, .f32⟩
  | .hbm, ⟨26, _⟩ => ⟨S50000x128, .f32⟩
  | .hbm, ⟨27, _⟩ => ⟨S600000x1, .i32⟩
  | .hbm, ⟨28, _⟩ => ⟨S50000x128, .f32⟩
  | .hbm, ⟨29, _⟩ => ⟨S_, .f32⟩
  | .hbm, ⟨30, _⟩ => ⟨S50000, .f32⟩
  | .hbm, ⟨31, _⟩ => ⟨S_, .f32⟩
  | .hbm, ⟨32, _⟩ => ⟨S512, .f32⟩
  | .hbm, ⟨33, _⟩ => ⟨S50000x1, .i32⟩
  | .hbm, ⟨34, _⟩ => ⟨S512, .f32⟩
  | .hbm, ⟨35, _⟩ => ⟨S_, .f32⟩
  | .hbm, ⟨36, _⟩ => ⟨S512, .f32⟩
  | .hbm, ⟨37, _⟩ => ⟨S512, .f32⟩
  | .hbm, ⟨38, _⟩ => ⟨S512, .f32⟩
  | .hbm, ⟨39, _⟩ => ⟨S_, .i32⟩
  | .hbm, ⟨40, _⟩ => ⟨S50000, .i32⟩
  | .hbm, ⟨41, _⟩ => ⟨S50000, .i1⟩
  | .hbm, ⟨42, _⟩ => ⟨S_, .i32⟩
  | .hbm, ⟨43, _⟩ => ⟨S50000, .i32⟩
  | .hbm, ⟨44, _⟩ => ⟨S50000, .i32⟩
  | .hbm, ⟨45, _⟩ => ⟨S50000, .i32⟩
  | .hbm, ⟨46, _⟩ => ⟨S50000x1, .i32⟩
  | .hbm, ⟨47, _⟩ => ⟨S50000, .f32⟩
  | .hbm, ⟨48, _⟩ => ⟨S50000x1, .f32⟩
  | .hbm, ⟨49, _⟩ => ⟨S50000x128, .f32⟩
  | .local _ .vmem, ⟨0, _⟩ => ⟨S8000x128, .f32⟩
  | .local _ .vmem, ⟨1, _⟩ => ⟨S8000x128, .f32⟩
  | .local _ .vmem, ⟨2, _⟩ => ⟨S8000x128, .f32⟩
  | .local _ .vmem, ⟨3, _⟩ => ⟨S8000x128, .f32⟩
  | .local _ .vmem, ⟨4, _⟩ => ⟨S8000x128, .f32⟩
  | .local _ .vmem, ⟨5, _⟩ => ⟨S8000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x1, .f32⟩
  | .local _ .vmem, ⟨11, _⟩ => ⟨S2000x1, .f32⟩
  | .local _ .vmem, ⟨12, _⟩ => ⟨S128x256, .f32⟩
  | .local _ .vmem, ⟨13, _⟩ => ⟨S256, .f32⟩
  | .local _ .vmem, ⟨14, _⟩ => ⟨S256x128, .f32⟩
  | .local _ .vmem, ⟨15, _⟩ => ⟨S128, .f32⟩
  | .local _ .vmem, ⟨16, _⟩ => ⟨S128, .f32⟩
  | .local _ .vmem, ⟨17, _⟩ => ⟨S128, .f32⟩
  | .local _ .vmem, ⟨18, _⟩ => ⟨S2000x128, .f32⟩
  | .local _ .vmem, ⟨19, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem9_1 : DmaSem sig := 19

abbrev nD : Nat := 1
abbrev τ : Topo := Topo.v7x

variable {F : FTy → Type} [FloatOps F]

abbrev grid0 : Pipeline.Grid := ⟨1, ![75], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bcast_S_S50000x128 : S_.BroadcastsInDim S50000x128 (![] : Fin 0 → Fin S50000x128.rank)
  bcast_S_S50000 : S_.BroadcastsInDim S50000 (![] : Fin 0 → Fin S50000.rank)
  bcast_S_S512 : S_.BroadcastsInDim S512 (![] : Fin 0 → Fin S512.rank)
  bcast_S50000_S50000x1_0 : S50000.BroadcastsInDim S50000x1 (![0] : Fin 1 → Fin S50000x1.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S512_S50000x1_S50000_n_0_0_1_wf : ScatterDims.WF S512 S50000x1 S50000 [] [0] [0] 1
  gather_S512_S50000x1_S50000_n_0_n_n_0_1_1_wf : GatherDims.WF S512 S50000x1 S50000 [] [0] [] [0] [] 1 ![1]
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S600000x128.size a
  hwx0_0 : ∀ i : grid0.Coords, EltTy.bits .f32 = 32 ∨ (Rect.block (s := S600000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S600000x128.size a
  hwx0_1 : ∀ i : grid0.Coords, EltTy.bits .f32 = 32 ∨ (Rect.block (s := S600000x128) S8000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x128.size a ≤ S600000x128.size a
  hwx0_2 : ∀ i : grid0.Coords, EltTy.bits .f32 = 32 ∨ (Rect.block (s := S600000x128) S8000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .f32 = 32 ∨ (Rect.block (s := S256x128) S256x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S50000x128.size a
  hwx1_9 : ∀ i : grid1.Coords, EltTy.bits .f32 = 32 ∨ (Rect.block (s := S50000x128) S2000x128.size (cc1_transform_9 i) (hinb1_9 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def gather_S512_S50000x1_S50000_n_0_n_n_0_1_1 : GatherDims S512 S50000x1 S50000 where
  offsetDims := []
  collapsedSliceDims := [0]
  operandBatchingDims := []
  startIndicesBatchingDims := []
  startIndexMap := [0]
  indexVectorDim := 1
  sliceSizes := ![1]
  wf := gather_S512_S50000x1_S50000_n_0_n_n_0_1_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v10) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S8000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg4) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg5) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg6) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg7) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v30) S2000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S50000x128 : Shape := ⟨2, ![50000, 128]⟩
abbrev S600000x128 : Shape := ⟨2, ![600000, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S2x600000 : Shape := ⟨2, ![2, 600000]⟩
abbrev S50000 : Shape := ⟨1, ![50000]⟩
abbrev S600000 : Shape := ⟨1, ![600000]⟩
abbrev S1x600000 : Shape := ⟨2, ![1, 600000]⟩
abbrev S_ : Shape := ⟨0, ![]⟩
abbrev S600000x1 : Shape := ⟨2, ![600000, 1]⟩
abbrev S50000x256 : Shape := ⟨2, ![50000, 256]⟩
abbrev S1x256 : Shape := ⟨2, ![1, 256]⟩
abbrev S1x128 : Shape := ⟨2, ![1, 128]⟩
abbrev S50000x1 : Shape := ⟨2, ![50000, 1]⟩
abbrev S512 : Shape := ⟨1, ![512]⟩

abbrev nBuf : Space → Nat
  | .hbm => 99
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000x128, .f32⟩
  | .hbm, ⟨2, _⟩ => ⟨S128x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S2x600000, .i32⟩
  | .hbm, ⟨9, _⟩ => ⟨S50000, .i32⟩
  | .hbm, ⟨10, _⟩ => ⟨S600000, .i32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x128, .f32⟩
  | .hbm, ⟨24, _⟩ => ⟨S600000x128, .f32⟩
  | .hbm, ⟨25, _⟩ => ⟨S_, .f32⟩
  | .hbm, ⟨26, _⟩ => ⟨S600000x128, .f32⟩
  | .hbm, ⟨27, _⟩ => ⟨S600000x128, .f32⟩
  | .hbm, ⟨28, _⟩ => ⟨S_, .f32⟩
  | .hbm, ⟨29, _⟩ => ⟨S50000x128, .f32⟩
  | .hbm, ⟨30, _⟩ => ⟨S600000x1, .i32⟩
  | .hbm, ⟨31, _⟩ => ⟨S50000x128, .f32⟩
  | .hbm, ⟨32, _⟩ => ⟨S50000x128, .f32⟩
  | .hbm, ⟨33, _⟩ => ⟨S50000x256, .f32⟩
  | .hbm, ⟨34, _⟩ => ⟨S1x256, .f32⟩
  | .hbm, ⟨35, _⟩ => ⟨S50000x256, .f32⟩
  | .hbm, ⟨36, _⟩ => ⟨S50000x256, .f32⟩
  | .hbm, ⟨37, _⟩ => ⟨S_, .f32⟩
  | .hbm, ⟨38, _⟩ => ⟨S50000x256, .f32⟩
  | .hbm, ⟨39, _⟩ => ⟨S50000x256, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S50000x128, .f32⟩
  | .hbm, ⟨44, _⟩ => ⟨S_, .f32⟩
  | .hbm, ⟨45, _⟩ => ⟨S50000, .f32⟩
  | .hbm, ⟨46, _⟩ => ⟨S50000x1, .f32⟩
  | .hbm, ⟨47, _⟩ => ⟨S_, .f32⟩
  | .hbm, ⟨48, _⟩ => ⟨S50000x1, .f32⟩
  | .hbm, ⟨49, _⟩ => ⟨S50000x1, .f32⟩
  | .hbm, ⟨50, _⟩ => ⟨S50000x128, .f32⟩
  | .hbm, ⟨51, _⟩ => ⟨S50000x128, .f32⟩
  | .hbm, ⟨52, _⟩ => ⟨S50000x128, .f32⟩
  | .hbm, ⟨53, _⟩ => ⟨S_, .f32⟩
  | .hbm, ⟨54, _⟩ => ⟨S50000, .f32⟩
  | .hbm, ⟨55, _⟩ => ⟨S50000x1, .f32⟩
  | .hbm, ⟨56, _⟩ => ⟨S_, .f32⟩
  | .hbm, ⟨57, _⟩ => ⟨S50000x1, .f32⟩
  | .hbm, ⟨58, _⟩ => ⟨S50000x1, .f32⟩
  | .hbm, ⟨59, _⟩ => ⟨S50000x128, .f32⟩
  | .hbm, ⟨60, _⟩ => ⟨S50000x128, .f32⟩
  | .hbm, ⟨61, _⟩ => ⟨S_, .f32⟩
  | .hbm, ⟨62, _⟩ => ⟨S50000x1, .f32⟩
  | .hbm, ⟨63, _⟩ => ⟨S50000x1, .f32⟩
  | .hbm, ⟨64, _⟩ => ⟨S50000x1, .f32⟩
  | .hbm, ⟨65, _⟩ => ⟨S50000x128, .f32⟩
  | .hbm, ⟨66, _⟩ => ⟨S50000x128, .f32⟩
  | .hbm, ⟨67, _⟩ => ⟨S1x128, .f32⟩
  | .hbm, ⟨68, _⟩ => ⟨S50000x128, .f32⟩
  | .hbm, ⟨69, _⟩ => ⟨S50000x128, .f32⟩
  | .hbm, ⟨70, _⟩ => ⟨S1x128, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S50000, .f32⟩
  | .hbm, ⟨75, _⟩ => ⟨S_, .f32⟩
  | .hbm, ⟨76, _⟩ => ⟨S512, .f32⟩
  | .hbm, ⟨77, _⟩ => ⟨S50000x1, .i32⟩
  | .hbm, ⟨78, _⟩ => ⟨S512, .f32⟩
  | .hbm, ⟨79, _⟩ => ⟨S_, .f32⟩
  | .hbm, ⟨80, _⟩ => ⟨S512, .f32⟩
  | .hbm, ⟨81, _⟩ => ⟨S512, .f32⟩
  | .hbm, ⟨82, _⟩ => ⟨S512, .f32⟩
  | .hbm, ⟨83, _⟩ => ⟨S_, .i32⟩
  | .hbm, ⟨84, _⟩ => ⟨S50000, .i32⟩
  | .hbm, ⟨85, _⟩ => ⟨S50000, .i1⟩
  | .hbm, ⟨86, _⟩ => ⟨S_, .i32⟩
  | .hbm, ⟨87, _⟩ => ⟨S50000, .i32⟩
  | .hbm, ⟨88, _⟩ => ⟨S50000, .i32⟩
  | .hbm, ⟨89, _⟩ => ⟨S50000, .i32⟩
  | .hbm, ⟨90, _⟩ => ⟨S50000x1, .i32⟩
  | .hbm, ⟨91, _⟩ => ⟨S50000, .f32⟩
  | .hbm, ⟨92, _⟩ => ⟨S50000x1, .f32⟩
  | .hbm, ⟨93, _⟩ => ⟨S50000x128, .f32⟩
  | .hbm, ⟨94, _⟩ => ⟨S50000x128, .f32⟩
  | .hbm, ⟨95, _⟩ => ⟨S_, .f32⟩
  | .hbm, ⟨96, _⟩ => ⟨S50000x128, .f32⟩
  | .hbm, ⟨97, _⟩ => ⟨S50000x128, .f32⟩
  | .hbm, ⟨98, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_call0_cst : Ref sig .tc := ⟨.hbm, 25, rfl⟩
abbrev main_call0_v0 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_call1_cst : Ref sig .tc := ⟨.hbm, 37, rfl⟩
abbrev main_call1_v0 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_1 : Ref sig .tc := ⟨.hbm, 44, rfl⟩
abbrev main_v26 : Ref sig .tc := ⟨.hbm, 45, rfl⟩
abbrev main_v27 : Ref sig .tc := ⟨.hbm, 46, rfl⟩
abbrev main_cst_2 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_3 : Ref sig .tc := ⟨.hbm, 53, rfl⟩
abbrev main_v33 : Ref sig .tc := ⟨.hbm, 54, rfl⟩
abbrev main_v34 : Ref sig .tc := ⟨.hbm, 55, rfl⟩
abbrev main_cst_4 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_5 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_6 : Ref sig .tc := ⟨.hbm, 73, rfl⟩
abbrev main_v50 : Ref sig .tc := ⟨.hbm, 74, rfl⟩
abbrev main_cst_7 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_8 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_9 : Ref sig .tc := ⟨.hbm, 83, rfl⟩
abbrev main_v57 : Ref sig .tc := ⟨.hbm, 84, rfl⟩
abbrev main_v58 : Ref sig .tc := ⟨.hbm, 85, rfl⟩
abbrev main_c_10 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_call2_cst : Ref sig .tc := ⟨.hbm, 95, rfl⟩
abbrev main_call2_v0 : Ref sig .tc := ⟨.hbm, 96, rfl⟩
abbrev main_v67 : Ref sig .tc := ⟨.hbm, 97, rfl⟩
abbrev main_v68 : Ref sig .tc := ⟨.hbm, 98, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S_S50000 : S_.BroadcastsInDim S50000 (![] : Fin 0 → Fin S50000.rank)
  bcast_S_S512 : S_.BroadcastsInDim S512 (![] : Fin 0 → Fin S512.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x256_S50000x256_1_0_0_1_n_n_wf : DotDims.WF S50000x128 S128x256 S50000x256 [1] [0] [0] [1] [] []
  dot_S50000x256_S256x128_S50000x128_1_0_0_1_n_n_wf : DotDims.WF S50000x256 S256x128 S50000x128 [1] [0] [0] [1] [] []
  scatter_S512_S50000x1_S50000_n_0_0_1_wf : ScatterDims.WF S512 S50000x1 S50000 [] [0] [0] 1
  gather_S512_S50000x1_S50000_n_0_n_n_0_1_1_wf : GatherDims.WF S512 S50000x1 S50000 [] [0] [] [0] [] 1 ![1]

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def gather_S512_S50000x1_S50000_n_0_n_n_0_1_1 : GatherDims S512 S50000x1 S50000 where
  offsetDims := []
  collapsedSliceDims := [0]
  operandBatchingDims := []
  startIndicesBatchingDims := []
  startIndexMap := [0]
  indexVectorDim := 1
  sliceSizes := ![1]
  wf := gather_S512_S50000x1_S50000_n_0_n_n_0_1_1_wf

class Facts : Prop extends Facts₀ where

variable [Facts]
-- ==== Proof.NodeSpec.lean ====
/-
  The per-node computation, one row at a time.

  A node's output row depends on the node's own feature row `x`, the row `a` of summed incoming messages, the node's
  graph scale `s`, and the shared parameters: two weight matrices with their biases and the normalisation's gain and
  shift. With `h = x + a`:
    hidden unit j       max (∑ k, h k · W1 k j + b1 j) 0
    second layer d      ∑ j, hidden j · W2 j d + b2 d
    mean of a row       (∑ d, v d) / 128
    normalised entry q  (v q − mean v) · rsqrt (mean ((v − mean v)²) + ε)
    output entry q      max ((normalised q · g q + be q) · s) 0 + x q
  on the extended reals. The zero, the divisor 128 and ε are kept as the float words both programs print; nothing here
  evaluates them. `nodeOut` lays the rows out as the [50000, 128] array: entry (r, q) is row r's output entry q.
-/
import Idealize.ShloMosaic.PureOps.Ideal
import Idealize.ShloMosaic.Lib.ValueIdx

noncomputable section

namespace Cert.NodeSpec

open Idealize.ShloMosaic Idealize.ShloMosaic.ValueIdx

/-- Hidden unit `j` of a row: the first layer at `x + a`, its bias added, clamped below at zero. -/
def hidden (x a : Fin 128 → EReal) (W1 : Fin 128 → Fin 256 → EReal) (b1 : Fin 256 → EReal) (j : Fin 256) : EReal :=
  max ((∑ k : Fin 128, (x k + a k) * W1 k j) + b1 j) (Ideal.ofBits .f32 0x00000000#32)

/-- Second-layer unit `d` of a row. -/
def lin (x a : Fin 128 → EReal) (W1 : Fin 128 → Fin 256 → EReal) (b1 : Fin 256 → EReal)
    (W2 : Fin 256 → Fin 128 → EReal) (b2 : Fin 128 → EReal) (d : Fin 128) : EReal :=
  (∑ j : Fin 256, hidden x a W1 b1 j * W2 j d) + b2 d

/-- The mean of a row of 128 entries: their sum divided by the float word of 128. -/
def mean128 (v : Fin 128 → EReal) : EReal :=
  Ideal.div (∑ d : Fin 128, v d) (Ideal.ofBits .f32 0x43000000#32)

/-- Entry `q` of a row normalised to mean zero and (ε-regularised) unit variance. -/
def normed (v : Fin 128 → EReal) (q : Fin 128) : EReal :=
  (v q - mean128 v) * Ideal.rsqrt (mean128 (fun d => (v d - mean128 v) * (v d - mean128 v)) + Ideal.ofBits .f32 0x3727C5AC#32)

/-- Output entry `q` of a node's row. -/
def rowF (x a : Fin 128 → EReal) (s : EReal) (W1 : Fin 128 → Fin 256 → EReal) (b1 : Fin 256 → EReal)
    (W2 : Fin 256 → Fin 128 → EReal) (b2 g be : Fin 128 → EReal) (q : Fin 128) : EReal :=
  max ((normed (lin x a W1 b1 W2 b2) q * g q + be q) * s) (Ideal.ofBits .f32 0x00000000#32) + x q

/-- The node stage over whole arrays: entry `(r, q)` is row `r`'s output entry `q`, from row `r` of the node features
    `nh` and of the summed messages `agg`, the scale column's entry `(r, 0)`, and the parameters. -/
def nodeOut (nh agg : (⟨2, ![50000, 128]⟩ : Shape).Idx → EReal) (sc : (⟨2, ![50000, 1]⟩ : Shape).Idx → EReal)
    (W1 : (⟨2, ![128, 256]⟩ : Shape).Idx → EReal) (b1 : (⟨1, ![256]⟩ : Shape).Idx → EReal)
    (W2 : (⟨2, ![256, 128]⟩ : Shape).Idx → EReal) (b2 g be : (⟨1, ![128]⟩ : Shape).Idx → EReal) :
    (⟨2, ![50000, 128]⟩ : Shape).Idx → EReal := fun i =>
  rowF (fun k => nh (ix2 (i 0) k)) (fun k => agg (ix2 (i 0) k)) (sc (ix2 (i 0) (0 : Fin 1)))
    (fun k j => W1 (ix2 k j)) (fun j => b1 (ix1 j)) (fun j d => W2 (ix2 j d))
    (fun d => b2 (ix1 d)) (fun d => g (ix1 d)) (fun d => be (ix1 d)) (i 1)

theorem nodeOut_apply (nh agg : (⟨2, ![50000, 128]⟩ : Shape).Idx → EReal) (sc : (⟨2, ![50000, 1]⟩ : Shape).Idx → EReal)
    (W1 : (⟨2, ![128, 256]⟩ : Shape).Idx → EReal) (b1 : (⟨1, ![256]⟩ : Shape).Idx → EReal)
    (W2 : (⟨2, ![256, 128]⟩ : Shape).Idx → EReal) (b2 g be : (⟨1, ![128]⟩ : Shape).Idx → EReal)
    (r : Fin 50000) (q : Fin 128) :
    nodeOut nh agg sc W1 b1 W2 b2 g be (ix2 r q)
      = rowF (fun k => nh (ix2 r k)) (fun k => agg (ix2 r k)) (sc (ix2 r (0 : Fin 1)))
          (fun k j => W1 (ix2 k j)) (fun j => b1 (ix1 j)) (fun j d => W2 (ix2 j d))
          (fun d => b2 (ix1 d)) (fun d => g (ix1 d)) (fun d => be (ix1 d)) q := rfl

end Cert.NodeSpec

end
-- ==== Proof.KernelRun.lean ====
/-
  The idealized kernel's run, with the result named.

  @main is four segments: host operations, the edge stage (a grid of 75 points), host operations, the node stage (a
  grid of 25 points). Every weakly fair execution terminates without a fault, and at the end every unscoped buffer of
  the TensorCore holds what the fold through the four segments leaves there. Read at the result buffer, that is the
  node stage's output array after its 25 write-backs; read at an argument, the launch contents.
-/
import proofs.«127062_j5111011083034_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is the node stage's output window's array. -/
theorem result_arr : Pipeline.arrRef spec1 9 = main_v30 := rfl

/-- What the fold leaves at the result buffer: the node stage's output array after all its write-backs, the stage
    entered from the contents the second stretch of host operations leaves. -/
theorem W4_result (c : Dev nD) :
    W4 m ρ c (Proc.devRef .tc main_v30) = (dat1 (V3 m ρ) c).arrAt 9 cfg1.N := W4_arr m ρ c 9

set_option backward.isDefEq.respectTransparency.types false in
/-- Every weakly fair execution of @main terminates, nothing faulting, with the result buffer at what the fold leaves
    there and every argument as launched. -/
theorem run : θ_run defs (onTc (τ := τ) (main (F := F))) ⟨m, fun _ => 0, ρ⟩ (fun r => ∀ c : Dev nD,
      r.2.mem ((c.tc : Thread nD τ).loc main_v30) = W4 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v30 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelIdeal.RunValue

end
-- ==== Proof.LibPlainProduct.lean ====
/-
  A matrix product into a zero accumulator, read at an entry.

  For the plain dimension numbers (left operand contracted on its last axis, right operand on its first, no batch
  axis) the product of an m×k by a k×n matrix accumulated into the zero matrix has, at row `a` and column `b`, the
  value `∑ c, A (a, c) · B (c, b)` on the extended reals. This is the accumulating-product counterpart of the library's
  `dotGeneral_plain_apply`, with the same proof: the contraction's index set is one axis of extent `k`, re-indexed by
  `Fin k`, and the two operand indices at a contraction index are `(a, c)` and `(c, b)`.
-/
import Idealize.ShloMosaic.PureOps.Ideal.Laws
import Idealize.ShloMosaic.Lib.ValueIdx
import Idealize.ShloMosaic.Lib.StackMember

noncomputable section

namespace Cert.LibPlainProduct

open Idealize.ShloMosaic Idealize.ShloMosaic.ValueIdx

variable {m n : Nat}

/-- The left operand's index at output entry `(a, b)` and contraction coordinate `c` is `(a, c)`. -/
theorem plain_lhsIdx {k : Nat} (a : Fin m) (b : Fin n) (c : Fin k) :
    (DotDims.plain m k n).lhsIdx (ix2 a b) ((contrEquiv1 (DotDims.plain m k n) k rfl rfl).symm c) = ix2 a c := by
  have c2 := contrEquiv1_symm_val (DotDims.plain m k n) k rfl rfl c
  funext ax; apply Fin.ext
  match ax with
  | ⟨0, _⟩ => simp [DotDims.lhsIdx, DotDims.plain]; rfl
  | ⟨1, _⟩ => simp [DotDims.lhsIdx, DotDims.plain]; exact c2

/-- The right operand's index at output entry `(a, b)` and contraction coordinate `c` is `(c, b)`. -/
theorem plain_rhsIdx {k : Nat} (a : Fin m) (b : Fin n) (c : Fin k) :
    (DotDims.plain m k n).rhsIdx (ix2 a b) ((contrEquiv1 (DotDims.plain m k n) k rfl rfl).symm c) = ix2 c b := by
  have c2 := contrEquiv1_symm_val (DotDims.plain m k n) k rfl rfl c
  funext ax; apply Fin.ext
  match ax with
  | ⟨0, _⟩ => simp [DotDims.rhsIdx, DotDims.plain]; exact c2
  | ⟨1, _⟩ => simp [DotDims.rhsIdx, DotDims.plain]; rfl

/-- The plain product of an m×k by a k×n matrix accumulated into zero, at entry `(a, b)`, is the sum over the
    contracted coordinate of the products of the entries. At the ideal values. -/
theorem matmul_plain_zero_apply {k : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (DotDims.plain m k n) k rfl rfl).symm]
  refine Finset.sum_congr rfl fun c _ => ?_
  rw [plain_lhsIdx, plain_rhsIdx]

end Cert.LibPlainProduct

end
-- ==== Proof.LibColumn.lean ====
/-
  Column vectors read at an index given by coordinates.

  A column is a matrix with ONE column, shape `[a, 1]`. Three layout operations on columns, each read at an index
  written `ix2 …`: a vector `[a]` cast to a column reads, at `(i, u)`, the vector at `i`; a column cast to a row `[1, a]`
  reads, at `(u, i)`, the column at `(i, 0)` (the same row-major position); a column broadcast to a matrix `[a, b]` reads,
  at `(p, c)`, the column at `(p, 0)`, whatever `c`. They are the column counterparts of the row forms (a vector cast to a
  row, a row broadcast over many rows).
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[1, a]` reads, at `(u, i)`, the operand at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.NodePayload.lean ====
/-
  The fused node stage, read at an entry of its 2000×128 block.

  The stage takes a block of node rows `x`, the block of summed messages `a` and the shared parameters, and computes per
  row: a two-layer perceptron at `x + a` (128 → 256 with a clamp at zero, then 256 → 128), a normalisation of the 128
  lanes to mean zero and ε-regularised unit variance, a gain and shift per lane, the row's scale, a clamp at zero, and
  the residual `+ x`. Every operation is elementwise, a product of matrices into a zero accumulator, a sum over the
  lanes, or a change of layout (a vector laid out as one row and repeated over the rows, a column repeated over the
  lanes). Read at entry `(p, q)` on the extended reals each of them is a formula in the entries of row `p` alone, and
  composing the formulas gives the row function of the specification.
-/
import proofs.«127062_j5111011083034_1_alg».proof.Proof.Gen.KernelIdeal.Skeleton
import proofs.«127062_j5111011083034_1_alg».proof.Proof.NodeSpec
import proofs.«127062_j5111011083034_1_alg».proof.Proof.LibPlainProduct
import proofs.«127062_j5111011083034_1_alg».proof.Proof.LibColumn
import Idealize.ShloMosaic.Lib.ValueLayout
import Idealize.ShloMosaic.Lib.Pipeline.Value
import Idealize.ShloMosaic.PureOps.Ideal.Laws

noncomputable section
namespace Cert.NodePayload
open Idealize.ShloMosaic Idealize.ShloMosaic.ValueIdx Cert.KernelIdeal Cert.KernelIdeal.Gen

/-! ## The two products -/

/-- The first product's dimension numbers are the plain ones: rows by columns, no batch axis. -/
theorem dims1 : dot_S2000x128_S128x256_S2000x256_1_0_0_1_n_n = DotDims.plain 2000 128 256 := rfl
/-- So are the second product's. -/
theorem dims2 : dot_S2000x256_S256x128_S2000x128_1_0_0_1_n_n = DotDims.plain 2000 256 128 := rfl

/-- The first product into the zero block, at `(p, j)`: the sum over the 128 lanes of row `p` times column `j`. -/
theorem mm1_apply {φ₁ φ₂ : FTy} (A : FVec Ideal S2000x128 φ₁) (B : FVec Ideal S128x256 φ₂) (p : Fin 2000) (j : Fin 256) :
    matmul dot_S2000x128_S128x256_S2000x256_1_0_0_1_n_n none A B (constant S2000x256 .f32 0x00000000#32) (ix2 p j)
      = ∑ k : Fin 128, A (ix2 p k) * B (ix2 k j) := by
  rw [dims1]; exact Cert.LibPlainProduct.matmul_plain_zero_apply none A B p j

/-- The second product into the zero block, at `(p, d)`: the sum over the 256 hidden units. -/
theorem mm2_apply {φ₁ φ₂ : FTy} (A : FVec Ideal S2000x256 φ₁) (B : FVec Ideal S256x128 φ₂) (p : Fin 2000) (d : Fin 128) :
    matmul dot_S2000x256_S256x128_S2000x128_1_0_0_1_n_n none A B (constant S2000x128 .f32 0x00000000#32) (ix2 p d)
      = ∑ j : Fin 256, A (ix2 p j) * B (ix2 j d) := by
  rw [dims2]; exact Cert.LibPlainProduct.matmul_plain_zero_apply none A B p d

/-! ## Layout: a vector as a row repeated over the rows; a column repeated over the lanes; a lane sum as a column -/

/-- A vector of `b` entries laid out as one row and repeated over `a` rows reads, at `(p, c)`, the vector at `c`. -/
theorem row_apply {α : Type} {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- The source index over row `p` with lane `d` put back on the summed axis is `(p, d)`. -/
theorem lift_eq (p : Fin 2000) (d : Fin 128) : reduces_S2000x128_S2000.lift (ix1 p) d = ix2 p d := by
  funext c; apply Fin.ext
  match c with
  | ⟨0, _⟩ => rfl
  | ⟨1, _⟩ => rfl

/-- The sum over the lanes (from the zero word, the sum's neutral element) kept as a column reads, at `(p, u)`, the sum
    of row `p`'s 128 entries. -/
theorem lanesum_apply (v : FVec Ideal S2000x128 .f32) (p : Fin 2000) (u : Fin 1) :
    shapeCast S2000x1 (multiReduction .add [1] S2000 v 0x00000000#32 reduces_S2000x128_S2000 (.inl rfl) rfl)
        shapeCasts_S2000_S2000x1 (ix2 p u) = ∑ d : Fin 128, v (ix2 p d) := by
  refine (Cert.LibColumn.shapeCast_a_a1_apply _ shapeCasts_S2000_S2000x1 p u).trans ?_
  refine (Ideal.multiReduction_add_single v _ reduces_S2000x128_S2000 (.inl rfl) rfl (ix1 p)).trans ?_
  exact Finset.sum_congr rfl fun d _ => congrArg v (lift_eq p d)

/-- A column repeated over the 128 lanes reads, at `(p, q)`, the column's entry of row `p`. -/
theorem col_apply {α : Type} (c : S2000x1.Idx → α) (p : Fin 2000) (q : Fin 128) :
    broadcastTo S2000x128 c broadcasts_S2000x1_S2000x128 (ix2 p q) = c (ix2 p (0 : Fin 1)) :=
  Cert.LibColumn.broadcastTo_a1_ab_apply c broadcasts_S2000x1_S2000x128 p q

/-! ## The normalisation of a block's rows -/

/-- Each row's mean over its 128 lanes, as a column: the lane sum divided by the float word of 128. -/
def meanCol (v : FVec Ideal S2000x128 .f32) : FVec Ideal S2000x1 .f32 :=
  divf (shapeCast S2000x1 (multiReduction .add [1] S2000 v 0x00000000#32 reduces_S2000x128_S2000 (.inl rfl) rfl)
      shapeCasts_S2000_S2000x1)
    (broadcast S2000x1 (Scalar.ofBits .f32 0x43000000#32))

/-- The column of means at row `p` is the mean of row `p`. -/
theorem meanCol_apply (v : FVec Ideal S2000x128 .f32) (p : Fin 2000) (u : Fin 1) :
    meanCol v (ix2 p u) = Cert.NodeSpec.mean128 fun d => v (ix2 p d) :=
  congrArg (fun t => Ideal.div t (Ideal.ofBits .f32 0x43000000#32)) (lanesum_apply v p u)

/-- A block with each row's mean taken off every lane. -/
def centred (v : FVec Ideal S2000x128 .f32) : FVec Ideal S2000x128 .f32 :=
  subf v (broadcastTo S2000x128 (meanCol v) broadcasts_S2000x1_S2000x128)

theorem centred_apply (v : FVec Ideal S2000x128 .f32) (p : Fin 2000) (q : Fin 128) :
    centred v (ix2 p q) = v (ix2 p q) - Cert.NodeSpec.mean128 fun d => v (ix2 p d) := by
  show v (ix2 p q) - broadcastTo S2000x128 (meanCol v) broadcasts_S2000x1_S2000x128 (ix2 p q) = _
  rw [col_apply, meanCol_apply]

/-- A block with every row normalised: the centred block times the reciprocal square root of the centred block's mean
    square plus ε, that column repeated over the lanes. -/
def normV (v : FVec Ideal S2000x128 .f32) : FVec Ideal S2000x128 .f32 :=
  mulf (centred v)
    (broadcastTo S2000x128
      (rsqrt (addf (meanCol (mulf (centred v) (centred v))) (broadcast S2000x1 (Scalar.ofBits .f32 0x3727C5AC#32))))
      broadcasts_S2000x1_S2000x128)

/-- The normalised block at `(p, q)` is the normalised row `p` at `q`. -/
theorem normV_apply (v : FVec Ideal S2000x128 .f32) (p : Fin 2000) (q : Fin 128) :
    normV v (ix2 p q) = Cert.NodeSpec.normed (fun d => v (ix2 p d)) q := by
  show centred v (ix2 p q) * broadcastTo S2000x128 _ broadcasts_S2000x1_S2000x128 (ix2 p q) = _
  rw [col_apply, centred_apply]
  show _ * Ideal.rsqrt (meanCol (mulf (centred v) (centred v)) (ix2 p (0 : Fin 1)) + Ideal.ofBits .f32 0x3727C5AC#32) = _
  rw [meanCol_apply]
  have hsq : (fun d => mulf (centred v) (centred v) (ix2 p d))
      = fun d : Fin 128 => (v (ix2 p d) - Cert.NodeSpec.mean128 fun d => v (ix2 p d))
          * (v (ix2 p d) - Cert.NodeSpec.mean128 fun d => v (ix2 p d)) :=
    funext fun d => by
      show centred v (ix2 p d) * centred v (ix2 p d) = _
      rw [centred_apply]
  rw [hsq]; rfl

/-! ## The two-layer perceptron of a block's rows -/

/-- The hidden block: the first product at `x + a` (the format change before the product is the identity on the extended
    reals), the first bias on every row, clamped below at zero. -/
def hiddenV (x0 x1 : Vec Ideal S2000x128 .f32) (x3 : Vec Ideal S128x256 .f32) (x4 : Vec Ideal S256 .f32) :
    FVec Ideal S2000x256 .f32 :=
  maximumf
    (addf
      (matmul dot_S2000x128_S128x256_S2000x256_1_0_0_1_n_n none
        (truncf .bf16 (addf x0 (shapeCast S2000x128 x1 shapeCasts_S2000x128_S2000x128)) bitsLt_bf16_f32)
        (truncf .bf16 x3 bitsLt_bf16_f32) (constant S2000x256 .f32 0x00000000#32))
      (broadcastTo S2000x256 (shapeCast S1x256 x4 shapeCasts_S256_S1x256) broadcasts_S1x256_S2000x256))
    (broadcast S2000x256 (Scalar.ofBits .f32 0x00000000#32))

/-- The hidden block at `(p, j)` is hidden unit `j` of row `p`. -/
theorem hiddenV_apply (x0 x1 : Vec Ideal S2000x128 .f32) (x3 : Vec Ideal S128x256 .f32) (x4 : Vec Ideal S256 .f32)
    (p : Fin 2000) (j : Fin 256) :
    hiddenV x0 x1 x3 x4 (ix2 p j)
      = Cert.NodeSpec.hidden (fun k => x0 (ix2 p k)) (fun k => x1 (ix2 p k)) (fun k j => x3 (ix2 k j))
          (fun j => x4 (ix1 j)) j := by
  show max (matmul (F := Ideal) dot_S2000x128_S128x256_S2000x256_1_0_0_1_n_n none _ _ (constant S2000x256 .f32 0x00000000#32) (ix2 p j)
      + broadcastTo S2000x256 (shapeCast S1x256 x4 shapeCasts_S256_S1x256) broadcasts_S1x256_S2000x256 (ix2 p j))
      (Ideal.ofBits .f32 0x00000000#32) = _
  rw [mm1_apply, row_apply, shapeCast_self]
  rfl

/-- The second layer's block: the second product at the hidden block, the second bias on every row. -/
def linV (x0 x1 : Vec Ideal S2000x128 .f32) (x3 : Vec Ideal S128x256 .f32) (x4 : Vec Ideal S256 .f32)
    (x5 : Vec Ideal S256x128 .f32) (x6 : Vec Ideal S128 .f32) : FVec Ideal S2000x128 .f32 :=
  addf
    (matmul dot_S2000x256_S256x128_S2000x128_1_0_0_1_n_n none (truncf .bf16 (hiddenV x0 x1 x3 x4) bitsLt_bf16_f32)
      (truncf .bf16 x5 bitsLt_bf16_f32) (constant S2000x128 .f32 0x00000000#32))
    (broadcastTo S2000x128 (shapeCast S1x128 x6 shapeCasts_S128_S1x128) broadcasts_S1x128_S2000x128)

/-- The second layer's block at `(p, d)` is second-layer unit `d` of row `p`. -/
theorem linV_apply (x0 x1 : Vec Ideal S2000x128 .f32) (x3 : Vec Ideal S128x256 .f32) (x4 : Vec Ideal S256 .f32)
    (x5 : Vec Ideal S256x128 .f32) (x6 : Vec Ideal S128 .f32) (p : Fin 2000) (d : Fin 128) :
    linV x0 x1 x3 x4 x5 x6 (ix2 p d)
      = Cert.NodeSpec.lin (fun k => x0 (ix2 p k)) (fun k => x1 (ix2 p k)) (fun k j => x3 (ix2 k j))
          (fun j => x4 (ix1 j)) (fun j d => x5 (ix2 j d)) (fun d => x6 (ix1 d)) d := by
  show matmul (F := Ideal) dot_S2000x256_S256x128_S2000x128_1_0_0_1_n_n none _ _ (constant S2000x128 .f32 0x00000000#32) (ix2 p d)
      + broadcastTo S2000x128 (shapeCast S1x128 x6 shapeCasts_S128_S1x128) broadcasts_S1x128_S2000x128 (ix2 p d) = _
  rw [mm2_apply, row_apply]
  refine congrArg (· + x6 (ix1 d)) (Finset.sum_congr rfl fun j _ => ?_)
  show hiddenV x0 x1 x3 x4 (ix2 p j) * x5 (ix2 j d) = _
  rw [hiddenV_apply]

/-! ## The printed payloads -/

/-- The payload computed first (every statement up to the normalised value) is the normalised second-layer block. -/
theorem pay2_eq (x0 x1 : Vec Ideal S2000x128 .f32) (x3 : Vec Ideal S128x256 .f32) (x4 : Vec Ideal S256 .f32)
    (x5 : Vec Ideal S256x128 .f32) (x6 : Vec Ideal S128 .f32) :
    k1_pay2 (F := Ideal) x0 x1 x3 x4 x5 x6 = normV (linV x0 x1 x3 x4 x5 x6) := rfl

/-- The payload computed last, over any block `w` in the normalised value's place, at `(p, q)`: gain and shift of
    lane `q`, the scale of row `p`, the clamp at zero, the residual. -/
theorem pay1_apply (x0 : Vec Ideal S2000x128 .f32) (w : FVec Ideal S2000x128 .f32) (x7 x8 : Vec Ideal S128 .f32)
    (x2 : Vec Ideal S2000x1 .f32) (p : Fin 2000) (q : Fin 128) :
    k1_pay1 (F := Ideal) x0 w x7 x8 x2 (ix2 p q)
      = max ((w (ix2 p q) * x7 (ix1 q) + x8 (ix1 q)) * x2 (ix2 p (0 : Fin 1))) (Ideal.ofBits .f32 0x00000000#32)
          + x0 (ix2 p q) := by
  show max ((w (ix2 p q)
        * broadcastTo S2000x128 (shapeCast S1x128 x7 shapeCasts_S128_S1x128) broadcasts_S1x128_S2000x128 (ix2 p q)
        + broadcastTo S2000x128 (shapeCast S1x128 x8 shapeCasts_S128_S1x128) broadcasts_S1x128_S2000x128 (ix2 p q))
        * broadcastTo S2000x128 (shapeCast S2000x1 x2 shapeCasts_S2000x1_S2000x1) broadcasts_S2000x1_S2000x128 (ix2 p q))
      (Ideal.ofBits .f32 0x00000000#32) + x0 (ix2 p q) = _
  rw [row_apply, row_apply, col_apply, shapeCast_self]

/-! ## The stage at an entry -/

/-- The node stage's stored block at `(p, q)` is the specification's row function of row `p` of the loaded blocks, at
    lane `q`. -/
theorem node_pay_apply (x0 x1 : Vec Ideal S2000x128 .f32) (x2 : Vec Ideal S2000x1 .f32) (x3 : Vec Ideal S128x256 .f32)
    (x4 : Vec Ideal S256 .f32) (x5 : Vec Ideal S256x128 .f32) (x6 x7 x8 : Vec Ideal S128 .f32) (p : Fin 2000) (q : Fin 128) :
    k1_pay1 (F := Ideal) x0 (k1_pay2 (F := Ideal) x0 x1 x3 x4 x5 x6) x7 x8 x2 (ix2 p q)
      = Cert.NodeSpec.rowF (fun k => x0 (ix2 p k)) (fun k => x1 (ix2 p k)) (x2 (ix2 p (0 : Fin 1)))
          (fun k j => x3 (ix2 k j)) (fun j => x4 (ix1 j)) (fun j d => x5 (ix2 j d))
          (fun d => x6 (ix1 d)) (fun d => x7 (ix1 d)) (fun d => x8 (ix1 d)) q := by
  rw [pay1_apply, pay2_eq, normV_apply]
  have hrow : (fun d => linV x0 x1 x3 x4 x5 x6 (ix2 p d))
      = Cert.NodeSpec.lin (fun k => x0 (ix2 p k)) (fun k => x1 (ix2 p k)) (fun k j => x3 (ix2 k j))
          (fun j => x4 (ix1 j)) (fun j d => x5 (ix2 j d)) (fun d => x6 (ix1 d)) :=
    funext fun d => linV_apply x0 x1 x3 x4 x5 x6 p d
  rw [hrow]; rfl

end Cert.NodePayload

end
-- ==== Proof.NodeValue.lean ====
/-
  The node stage's output array.

  The node stage is a grid of 25 points over blocks of 2000 rows. At point `t` it loads rows 2000·t … 2000·t + 1999 of the
  node features, of the summed messages and of the scale column, and the whole of the six parameter arrays (their
  windows never move), and stores into the same rows of its output the per-row function of the specification. The 25
  blocks tile the 50000 rows, so after the last write-back the output array is `nodeOut` of the nine arrays as the stage
  found them — whatever contents `V` it is entered from.
-/
import proofs.«127062_j5111011083034_1_alg».proof.Proof.Gen.KernelIdeal.Frame
import proofs.«127062_j5111011083034_1_alg».proof.Proof.NodeSpec
import proofs.«127062_j5111011083034_1_alg».proof.Proof.NodePayload
import Idealize.ShloMosaic.Lib.Pipeline.Value
import Idealize.ShloMosaic.Lib.ValueIdx

set_option maxRecDepth 16384

noncomputable section

namespace Cert.KernelIdeal.NodeValue

open Cert.KernelIdeal Cert.KernelIdeal.Gen Cert.NodeSpec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The output buffer after the body, at entry `(p, q)`: the per-row function of row `p` of the loaded blocks. -/
theorem out_apply (x0 x1 : Vec Ideal S2000x128 .f32) (x2 : Vec Ideal S2000x1 .f32) (x3 : Vec Ideal S128x256 .f32)
    (x4 : Vec Ideal S256 .f32) (x5 : Vec Ideal S256x128 .f32) (x6 x7 x8 : Vec Ideal S128 .f32) (p : Fin 2000) (q : Fin 128) :
    out1_9 (F := Ideal) x0 x1 x2 x3 x4 x5 x6 x7 x8 (ix2 p q)
      = rowF (fun k => x0 (ix2 p k)) (fun k => x1 (ix2 p k)) (x2 (ix2 p (0 : Fin 1)))
          (fun k j => x3 (ix2 k j)) (fun j => x4 (ix1 j)) (fun j d => x5 (ix2 j d))
          (fun d => x6 (ix1 d)) (fun d => x7 (ix1 d)) (fun d => x8 (ix1 d)) q := by
  unfold out1_9
  rw [View.canon_unit_zero hz2]
  simp only [View.ld_unit_zero (S := S2000x128) hz2, View.ld_unit_zero (S := S128x256) hz2, View.ld_unit_zero (S := S256) hz1,
    View.ld_unit_zero (S := S256x128) hz2, View.ld_unit_zero (S := S128) hz1, View.ld_unit_zero (S := S2000x1) hz2]
  exact Cert.NodePayload.node_pay_apply x0 x1 x2 x3 x4 x5 x6 x7 x8 p q

/-- The row-blocked windows (node features, summed messages, scale column, output) are at block row `t`, block column
    0, at point `t`; the six parameter windows stay at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_9.index t (0 : Fin 2) = t.val ∧ win1_9.index t (1 : Fin 2) = 0 :=
  (by decide +kernel : ∀ t : Fin grid1.N, _)

theorem idx_facts_params : ∀ t : Fin cfg1.N, win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0 ∧ win1_7.index t (0 : Fin 1) = 0 ∧ win1_8.index t (0 : Fin 1) = 0 :=
  (by decide +kernel : ∀ t : Fin grid1.N, _)

/-- Row `2000·t + p` of the 50000 rows. -/
abbrev row (t : Fin cfg1.N) (p : Fin 2000) : Fin 50000 :=
  ⟨2000 * t.val + p.val, by have hN : cfg1.N = 25 := N_1; have := t.isLt; have := p.isLt; omega⟩

/-- The node-feature block at point `t` is rows `2000·t …` of the node features. -/
theorem blk0_apply (c : Dev nD) (t : Fin cfg1.N) (p : Fin 2000) (k : Fin 128) :
    (iblk1 V c 0 t : Vec Ideal S2000x128 .f32) (ix2 p k) = (V c main_arg0 : S50000x128.Idx → EReal) (ix2 (row t p) k) := by
  obtain ⟨e0, e1, -⟩ := idx_facts t
  unfold iblk1
  rw [View.read_apply]
  show (V c main_arg0 : S50000x128.Idx → EReal) _ = (V c main_arg0 : S50000x128.Idx → EReal) _
  congr 1
  funext a
  apply Fin.ext
  match a with
  | ⟨0, _⟩ => show win1_0.index t 0 * 2000 + 1 * p.val = 2000 * t.val + p.val; omega
  | ⟨1, _⟩ => show win1_0.index t 1 * 128 + 1 * k.val = k.val; omega

/-- The summed-messages block at point `t` is the same rows of the summed messages. -/
theorem blk1_apply (c : Dev nD) (t : Fin cfg1.N) (p : Fin 2000) (k : Fin 128) :
    (iblk1 V c 1 t : Vec Ideal S2000x128 .f32) (ix2 p k) = (V c main_v14 : S50000x128.Idx → EReal) (ix2 (row t p) k) := by
  obtain ⟨-, -, e0, e1, -⟩ := idx_facts t
  unfold iblk1
  rw [View.read_apply]
  show (V c main_v14 : S50000x128.Idx → EReal) _ = (V c main_v14 : S50000x128.Idx → EReal) _
  congr 1
  funext a
  apply Fin.ext
  match a with
  | ⟨0, _⟩ => show win1_1.index t 0 * 2000 + 1 * p.val = 2000 * t.val + p.val; omega
  | ⟨1, _⟩ => show win1_1.index t 1 * 128 + 1 * k.val = k.val; omega

/-- The scale block at point `t` is the same rows of the scale column. -/
theorem blk2_apply (c : Dev nD) (t : Fin cfg1.N) (p : Fin 2000) :
    (iblk1 V c 2 t : Vec Ideal S2000x1 .f32) (ix2 p (0 : Fin 1)) = (V c main_v29 : S50000x1.Idx → EReal) (ix2 (row t p) (0 : Fin 1)) := by
  obtain ⟨-, -, -, -, e0, e1, -⟩ := idx_facts t
  unfold iblk1
  rw [View.read_apply]
  show (V c main_v29 : S50000x1.Idx → EReal) _ = (V c main_v29 : S50000x1.Idx → EReal) _
  congr 1
  funext a
  apply Fin.ext
  match a with
  | ⟨0, _⟩ => show win1_2.index t 0 * 2000 + 1 * p.val = 2000 * t.val + p.val; omega
  | ⟨1, _⟩ => show win1_2.index t 1 * 1 + 1 * 0 = 0; omega

/-- The parameter blocks are the whole parameter arrays at every point. -/
theorem blk3_apply (c : Dev nD) (t : Fin cfg1.N) (k : Fin 128) (j : Fin 256) :
    (iblk1 V c 3 t : Vec Ideal S128x256 .f32) (ix2 k j) = (V c main_arg2 : S128x256.Idx → EReal) (ix2 k j) := by
  obtain ⟨e0, e1, -⟩ := idx_facts_params t
  unfold iblk1
  rw [View.read_apply]
  show (V c main_arg2 : S128x256.Idx → EReal) _ = (V c main_arg2 : S128x256.Idx → EReal) _
  congr 1
  funext a
  apply Fin.ext
  match a with
  | ⟨0, _⟩ => show win1_3.index t 0 * 128 + 1 * k.val = k.val; omega
  | ⟨1, _⟩ => show win1_3.index t 1 * 256 + 1 * j.val = j.val; omega

theorem blk4_apply (c : Dev nD) (t : Fin cfg1.N) (j : Fin 256) :
    (iblk1 V c 4 t : Vec Ideal S256 .f32) (ix1 j) = (V c main_arg3 : S256.Idx → EReal) (ix1 j) := by
  obtain ⟨-, -, e0, -⟩ := idx_facts_params t
  unfold iblk1
  rw [View.read_apply]
  show (V c main_arg3 : S256.Idx → EReal) _ = (V c main_arg3 : S256.Idx → EReal) _
  congr 1
  funext a
  apply Fin.ext
  match a with
  | ⟨0, _⟩ => show win1_4.index t 0 * 256 + 1 * j.val = j.val; omega

theorem blk5_apply (c : Dev nD) (t : Fin cfg1.N) (j : Fin 256) (d : Fin 128) :
    (iblk1 V c 5 t : Vec Ideal S256x128 .f32) (ix2 j d) = (V c main_arg4 : S256x128.Idx → EReal) (ix2 j d) := by
  obtain ⟨-, -, -, e0, e1, -⟩ := idx_facts_params t
  unfold iblk1
  rw [View.read_apply]
  show (V c main_arg4 : S256x128.Idx → EReal) _ = (V c main_arg4 : S256x128.Idx → EReal) _
  congr 1
  funext a
  apply Fin.ext
  match a with
  | ⟨0, _⟩ => show win1_5.index t 0 * 256 + 1 * j.val = j.val; omega
  | ⟨1, _⟩ => show win1_5.index t 1 * 128 + 1 * d.val = d.val; omega

theorem blk6_apply (c : Dev nD) (t : Fin cfg1.N) (d : Fin 128) :
    (iblk1 V c 6 t : Vec Ideal S128 .f32) (ix1 d) = (V c main_arg5 : S128.Idx → EReal) (ix1 d) := by
  obtain ⟨-, -, -, -, -, e0, -⟩ := idx_facts_params t
  unfold iblk1
  rw [View.read_apply]
  show (V c main_arg5 : S128.Idx → EReal) _ = (V c main_arg5 : S128.Idx → EReal) _
  congr 1
  funext a
  apply Fin.ext
  match a with
  | ⟨0, _⟩ => show win1_6.index t 0 * 128 + 1 * d.val = d.val; omega

theorem blk7_apply (c : Dev nD) (t : Fin cfg1.N) (d : Fin 128) :
    (iblk1 V c 7 t : Vec Ideal S128 .f32) (ix1 d) = (V c main_arg6 : S128.Idx → EReal) (ix1 d) := by
  obtain ⟨-, -, -, -, -, -, e0, -⟩ := idx_facts_params t
  unfold iblk1
  rw [View.read_apply]
  show (V c main_arg6 : S128.Idx → EReal) _ = (V c main_arg6 : S128.Idx → EReal) _
  congr 1
  funext a
  apply Fin.ext
  match a with
  | ⟨0, _⟩ => show win1_7.index t 0 * 128 + 1 * d.val = d.val; omega

theorem blk8_apply (c : Dev nD) (t : Fin cfg1.N) (d : Fin 128) :
    (iblk1 V c 8 t : Vec Ideal S128 .f32) (ix1 d) = (V c main_arg7 : S128.Idx → EReal) (ix1 d) := by
  obtain ⟨-, -, -, -, -, -, -, e0⟩ := idx_facts_params t
  unfold iblk1
  rw [View.read_apply]
  show (V c main_arg7 : S128.Idx → EReal) _ = (V c main_arg7 : S128.Idx → EReal) _
  congr 1
  funext a
  apply Fin.ext
  match a with
  | ⟨0, _⟩ => show win1_8.index t 0 * 128 + 1 * d.val = d.val; omega

/-- The node stage's whole-array function of the nine arrays as the stage finds them. -/
abbrev nodeG (c : Dev nD) : S50000x128.Idx → EReal :=
  nodeOut (V c main_arg0) (V c main_v14) (V c main_v29) (V c main_arg2) (V c main_arg3) (V c main_arg4)
    (V c main_arg5) (V c main_arg6) (V c main_arg7)

/-- Entry `(p, q)` of the output block at point `t` sits at row `2000·t + p`, column `q`, of the output array. -/
theorem emb9 (t : Fin cfg1.N) (p : Fin 2000) (q : Fin 128) :
    ((cfg1.win 9).blk t).view.emb (ix2 p q) = (ix2 (row t p) q : S50000x128.Idx) := by
  obtain ⟨-, -, -, -, -, -, e0, e1⟩ := idx_facts t
  funext a
  apply Fin.ext
  match a with
  | ⟨0, _⟩ => show win1_9.index t 0 * 2000 + 1 * p.val = 2000 * t.val + p.val; omega
  | ⟨1, _⟩ => show win1_9.index t 1 * 128 + 1 * q.val = q.val; omega

/-- What the body leaves in the output buffer at point `t`, entry by entry, is the node stage's function at the
    entry's place in the output array. -/
theorem after_apply (c : Dev nD) (t : Fin cfg1.N) (p : Fin 2000) (q : Fin 128) :
    out1_9 (F := Ideal) (iblk1 V c 0 t) (iblk1 V c 1 t) (iblk1 V c 2 t) (iblk1 V c 3 t) (iblk1 V c 4 t) (iblk1 V c 5 t)
        (iblk1 V c 6 t) (iblk1 V c 7 t) (iblk1 V c 8 t) (ix2 p q)
      = nodeG V c (ix2 (row t p) q) := by
  refine (out_apply (iblk1 V c 0 t) (iblk1 V c 1 t) (iblk1 V c 2 t) (iblk1 V c 3 t) (iblk1 V c 4 t) (iblk1 V c 5 t)
    (iblk1 V c 6 t) (iblk1 V c 7 t) (iblk1 V c 8 t) p q).trans ?_
  unfold nodeG
  rw [nodeOut_apply]
  simp only [blk0_apply V c t, blk1_apply V c t, blk2_apply V c t, blk3_apply V c t, blk4_apply V c t, blk5_apply V c t,
    blk6_apply V c t, blk7_apply V c t, blk8_apply V c t]

/-- What point `t` writes back is block `t` of the node stage's function. -/
theorem flushed_eq (c : Dev nD) (t : Fin cfg1.N) :
    (dat1 V c).flushed 9 t = ((cfg1.win 9).blk t).view.read (Elt Ideal) (nodeG V c) := by
  show (cfg1.win 9).cut (grid1.coords t) ((dat1 V c).after 9 t) = _
  rw [after1_9]
  have key : ∀ j : S2000x128.Idx,
      out1_9 (F := Ideal) (iblk1 V c 0 t) (iblk1 V c 1 t) (iblk1 V c 2 t) (iblk1 V c 3 t) (iblk1 V c 4 t) (iblk1 V c 5 t)
          (iblk1 V c 6 t) (iblk1 V c 7 t) (iblk1 V c 8 t) j
        = nodeG V c (((cfg1.win 9).blk t).view.emb j) := by
    intro j
    obtain ⟨p, q, rfl⟩ : ∃ (p : Fin 2000) (q : Fin 128), j = ix2 p q := ⟨j 0, j 1, eq_ix2 j⟩
    rw [emb9]
    exact after_apply V c t p q
  funext j
  exact key j

/-- An index of the output array is in point `t`'s block iff each coordinate is in the block's range on its axis. -/
theorem mem_blk (t : Fin cfg1.N) (i : S50000x128.Idx) :
    i ∈ ((cfg1.win 9).blk t).view.set ↔ ∀ a : Fin 2, win1_9.index t a * S2000x128.size a ≤ (i a).val
      ∧ (i a).val < win1_9.index t a * S2000x128.size a + S2000x128.size a := by
  show i ∈ ((View.whole main_v30).slice (win1_9.rect t)).set ↔ _
  rw [View.set_slice_whole, Rect.mem_set_unit]
  exact Iff.rfl

/-- Every row is in the block of the point `row / 2000`. -/
theorem cover (i : S50000x128.Idx) :
    ∃ t : Fin cfg1.N, (cfg1.win 9).flush t = true ∧ i ∈ ((cfg1.win 9).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  obtain ⟨-, -, -, -, -, -, e0, e1⟩ := idx_facts t
  have ht : t.val = (i 0).val / 2000 := rfl
  refine ⟨t, flush1_9 t, ?_⟩
  rw [mem_blk]
  intro a
  match a with
  | ⟨0, _⟩ => show win1_9.index t (0 : Fin 2) * 2000 ≤ (i 0).val ∧ (i 0).val < win1_9.index t (0 : Fin 2) * 2000 + 2000; omega
  | ⟨1, _⟩ => show win1_9.index t (1 : Fin 2) * 128 ≤ (i 1).val ∧ (i 1).val < win1_9.index t (1 : Fin 2) * 128 + 128; omega

/-- The output array after the stage: the node stage's function of the nine arrays as the stage found them. -/
theorem final (c : Dev nD) : (dat1 V c).arrAt 9 cfg1.N = nodeG V c :=
  (dat1 V c).arrAt_eq_of_cover 9 (nodeG V c) (fun t _ => flushed_eq V c t) cover

end Cert.KernelIdeal.NodeValue

end
-- ==== Proof.EdgeValue.lean ====
/-
  The edge stage's output array.

  The edge stage is a grid of 75 points over blocks of 8000 rows; at point `t` it loads rows 8000·t … 8000·t + 7999 of
  the gathered source features and of the edge features and stores, entry by entry, `max (g + e) 0` into the same rows
  of its output. The 75 blocks tile the 600000 rows, so after the last write-back the output array is
  `fun i => max (g i + e i) 0` of the two arrays as the stage found them — whatever contents `V` it is entered from.
-/
import proofs.«127062_j5111011083034_1_alg».proof.Proof.Gen.KernelIdeal.Frame
import Idealize.ShloMosaic.Lib.Pipeline.Value
import Idealize.ShloMosaic.Lib.ValueIdx

set_option maxRecDepth 16384

noncomputable section

namespace Cert.KernelIdeal.EdgeValue

open Cert.KernelIdeal Cert.KernelIdeal.Gen
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The message array: entry by entry the sum of the two operands clamped below at zero. -/
abbrev edgeG (g e : S600000x128.Idx → EReal) : S600000x128.Idx → EReal :=
  fun i => max (g i + e i) (Ideal.ofBits .f32 0x00000000#32)

/-- The body's stored value is that function of its two loaded blocks. -/
theorem pay_eq (x0 x1 : Vec Ideal S8000x128 .f32) :
    k0_pay1 (F := Ideal) x0 x1 = fun j => max (x0 j + x1 j) (Ideal.ofBits .f32 0x00000000#32) := by
  unfold k0_pay1
  funext j
  simp only [shapeCast_self]
  rfl

/-- The three windows move together: at point `t` each is at block row `t`, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the message array of the operands as the stage found them. -/
theorem flushed_eq (c : Dev nD) (t : Fin cfg0.N) :
    (dat0 V c).flushed 2 t
      = ((cfg0.win 2).blk t).view.read (Elt Ideal) (edgeG (V c main_v10) (V c main_arg1)) := by
  show (cfg0.win 2).cut (grid0.coords t) ((dat0 V c).after 2 t) = _
  rw [after0_2]
  unfold out0_2
  rw [View.canon_unit_zero hz2]
  simp only [View.ld_unit_zero (S := S8000x128) hz2]
  rw [pay_eq]
  obtain ⟨e0, e1, e2, e3, e4, e5⟩ := idx_facts t
  funext j
  show FloatOps.maximumf (F := Ideal) (φ := .f32)
        (FloatOps.addf (F := Ideal) (φ := .f32) (V c main_v10 (((cfg0.win 0).blk t).view.emb j)) (V c main_arg1 (((cfg0.win 1).blk t).view.emb j))) _
    = FloatOps.maximumf (F := Ideal) (φ := .f32)
        (FloatOps.addf (F := Ideal) (φ := .f32) (V c main_v10 (((cfg0.win 2).blk t).view.emb j)) (V c main_arg1 (((cfg0.win 2).blk t).view.emb j))) _
  have h0 : ((cfg0.win 0).blk t).view.emb j = ((cfg0.win 2).blk t).view.emb j := by
    funext a; apply Fin.ext
    match a with
    | ⟨0, _⟩ => show win0_0.index t (0 : Fin 2) * 8000 + 1 * (j 0).val = win0_2.index t (0 : Fin 2) * 8000 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 8000 + 1 * (j 0).val = win0_2.index t (0 : Fin 2) * 8000 + 1 * (j 0).val; omega
    | ⟨1, _⟩ => show win0_1.index t (1 : Fin 2) * 128 + 1 * (j 1).val = win0_2.index t (1 : Fin 2) * 128 + 1 * (j 1).val; omega
  rw [h0, h1]

/-- An index of the output array is in point `t`'s block iff each coordinate is in the block's range on its axis. -/
theorem mem_blk (t : Fin cfg0.N) (i : S600000x128.Idx) :
    i ∈ ((cfg0.win 2).blk t).view.set ↔ ∀ a : Fin 2, win0_2.index t a * S8000x128.size a ≤ (i a).val
      ∧ (i a).val < win0_2.index t a * S8000x128.size a + S8000x128.size a := by
  show i ∈ ((View.whole main_v11).slice (win0_2.rect t)).set ↔ _
  rw [View.set_slice_whole, Rect.mem_set_unit]
  exact Iff.rfl

/-- Every row is in the block of the point `row / 8000`. -/
theorem cover (i : S600000x128.Idx) :
    ∃ t : Fin cfg0.N, (cfg0.win 2).flush t = true ∧ i ∈ ((cfg0.win 2).blk t).view.set := by
  have hi0 : (i 0).val < 600000 := (i 0).isLt
  have hi1 : (i 1).val < 128 := (i 1).isLt
  have hN : cfg0.N = 75 := N_0
  let t : Fin cfg0.N := ⟨(i 0).val / 8000, by rw [hN]; omega⟩
  obtain ⟨-, -, -, -, e4, e5⟩ := idx_facts t
  have ht : t.val = (i 0).val / 8000 := rfl
  refine ⟨t, flush0_2 t, ?_⟩
  rw [mem_blk]
  intro a
  match a with
  | ⟨0, _⟩ => show win0_2.index t (0 : Fin 2) * 8000 ≤ (i 0).val ∧ (i 0).val < win0_2.index t (0 : Fin 2) * 8000 + 8000; omega
  | ⟨1, _⟩ => show win0_2.index t (1 : Fin 2) * 128 ≤ (i 1).val ∧ (i 1).val < win0_2.index t (1 : Fin 2) * 128 + 128; omega

/-- The output array after the stage: the message array of the operands as the stage found them. -/
theorem final (c : Dev nD) :
    (dat0 V c).arrAt 2 cfg0.N = edgeG (V c main_v10) (V c main_arg1) :=
  (dat0 V c).arrAt_eq_of_cover 2 (edgeG (V c main_v10) (V c main_arg1)) (fun t _ => flushed_eq V c t) cover

end Cert.KernelIdeal.EdgeValue

end
-- ==== Proof.HostChain.lean ====
/-
  The host operations around the two stages, read at the buffers the node stage takes.

  Before the edge stage the program splits the edge list into sources and destinations and gathers the source rows of
  the node features. Between the stages it sums the edge stage's messages into their destination rows, counts the nodes
  of each graph, turns the counts into scales and gathers each node's scale into a column. The reference performs the
  same operations on the same arguments; the only difference is that its message array is computed by host operations
  where the kernel program's is the edge stage's output. So, read through the fold of the program's segments, the
  summed messages and the scale column that the node stage finds are the reference's own stages of the arguments, and
  each argument the node stage reads is as launched.
-/
import proofs.«127062_j5111011083034_1_alg».proof.Proof.Gen.KernelIdeal.Frame
import proofs.«127062_j5111011083034_1_alg».proof.Proof.Gen.ReferenceIdeal.Read
import proofs.«127062_j5111011083034_1_alg».proof.Proof.EdgeValue
import Idealize.ShloMosaic.Lib.StableHlo.Run

set_option maxRecDepth 16384

noncomputable section

namespace Cert.KernelIdeal.HostChain

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## After the first stretch of host operations -/

/-- The edge features reach the edge stage as launched. -/
theorem V1_arg1 (c : Dev nD) : V1 m ρ c main_arg1 = m ((c.tc : Thread nD τ).loc main_arg1) := by
  show StableHlo.after hostOps0 (W0 m ρ c) (Proc.devRef .tc main_arg1) = _
  after_results

/-- The gathered source rows are the reference's gather of the arguments. -/
theorem V1_v10 (c : Dev nD) :
    V1 m ρ c main_v10 = Cert.ReferenceIdeal.Read.val_main_v10 (F := Ideal)
      (m ((c.tc : Thread nD τ).loc main_arg0)) (m ((c.tc : Thread nD τ).loc main_arg8)) := by
  show StableHlo.after hostOps0 (W0 m ρ c) (Proc.devRef .tc main_v10) = _
  after_results
  rfl

/-- The destination list after the first stretch is the reference's. -/
theorem W1_v3 (c : Dev nD) :
    W1 m ρ c (Proc.devRef .tc main_v3) = Cert.ReferenceIdeal.Read.val_main_v3 (F := Ideal)
      (m ((c.tc : Thread nD τ).loc main_arg8)) := by
  show StableHlo.after hostOps0 (W0 m ρ c) (Proc.devRef .tc main_v3) = _
  after_results
  rfl

/-- The node-id list passes the first stretch untouched. -/
theorem W1_arg9 (c : Dev nD) :
    W1 m ρ c (Proc.devRef .tc main_arg9) = m ((c.tc : Thread nD τ).loc main_arg9) := by
  show StableHlo.after hostOps0 (W0 m ρ c) (Proc.devRef .tc main_arg9) = _
  after_results

/-! ## After the edge stage -/

/-- The edge stage's output array is the reference's message array of the arguments: entry by entry the gathered
    source feature plus the edge feature, clamped below at zero. -/
theorem W2_v11 (c : Dev nD) :
    W2 m ρ c (Proc.devRef .tc main_v11) = Cert.ReferenceIdeal.Read.val_main_v12 (F := Ideal)
      (m ((c.tc : Thread nD τ).loc main_arg0)) (m ((c.tc : Thread nD τ).loc main_arg1)) (m ((c.tc : Thread nD τ).loc main_arg8)) := by
  refine (W2_arr m ρ c 2).trans ?_
  rw [Cert.KernelIdeal.EdgeValue.final (V1 m ρ) c, V1_arg1, V1_v10]
  funext i
  rw [Cert.ReferenceIdeal.Read.val_main_v12_apply, Cert.ReferenceIdeal.Read.val_main_v11_apply,
    Cert.ReferenceIdeal.Read.val_main_call0_v0_apply, Cert.ReferenceIdeal.Read.val_main_call0_cst_apply]
  rfl

theorem W2_v3 (c : Dev nD) :
    W2 m ρ c (Proc.devRef .tc main_v3) = Cert.ReferenceIdeal.Read.val_main_v3 (F := Ideal)
      (m ((c.tc : Thread nD τ).loc main_arg8)) :=
  (W2_of_ne m ρ c main_v3 (by decide)).trans (W1_v3 m ρ c)

theorem W2_arg9 (c : Dev nD) :
    W2 m ρ c (Proc.devRef .tc main_arg9) = m ((c.tc : Thread nD τ).loc main_arg9) :=
  (W2_of_ne m ρ c main_arg9 (by decide)).trans (W1_arg9 m ρ c)

/-! ## After the second stretch of host operations: what the node stage finds -/

/-- The summed messages the node stage finds are the reference's summed messages of the arguments. -/
theorem V3_v14 (c : Dev nD) :
    V3 m ρ c main_v14 = Cert.ReferenceIdeal.Read.val_main_v15 (F := Ideal)
      (m ((c.tc : Thread nD τ).loc main_arg0)) (m ((c.tc : Thread nD τ).loc main_arg1)) (m ((c.tc : Thread nD τ).loc main_arg8)) := by
  show StableHlo.after hostOps1 (W2 m ρ c) (Proc.devRef .tc main_v14) = _
  after_results_simp
  rw [W2_v3, W2_v11]
  unfold Cert.ReferenceIdeal.Read.val_main_v15 Cert.ReferenceIdeal.Read.val_main_v14
  generalize Cert.ReferenceIdeal.Read.val_main_v12 (F := Ideal)
    (m ((c.tc : Thread nD τ).loc main_arg0)) (m ((c.tc : Thread nD τ).loc main_arg1)) (m ((c.tc : Thread nD τ).loc main_arg8)) = msg
  generalize Cert.ReferenceIdeal.Read.val_main_v3 (F := Ideal) (m ((c.tc : Thread nD τ).loc main_arg8)) = dst
  rfl

/-- The scale column the node stage finds is the reference's scale column of the node-id list. -/
theorem V3_v29 (c : Dev nD) :
    V3 m ρ c main_v29 = Cert.ReferenceIdeal.Read.val_main_v64 (F := Ideal) (m ((c.tc : Thread nD τ).loc main_arg9)) := by
  show StableHlo.after hostOps1 (W2 m ρ c) (Proc.devRef .tc main_v29) = _
  after_results_simp
  rw [W2_arg9]
  generalize m ((c.tc : Thread nD τ).loc main_arg9) = ids
  rfl

/-! ## The arguments the node stage reads are as launched

No host operation and neither stage writes an argument, so the fold read at an argument's buffer walks back to the
launch memory; the node stage's window over an argument ends the stage holding what it found. -/

theorem V3_arg0 (c : Dev nD) : V3 m ρ c main_arg0 = m ((c.tc : Thread nD τ).loc main_arg0) :=
  ((W4_arr m ρ c 0).trans (((dat1 (V3 m ρ) c).arrAt_in 0 rfl _).trans (A_eq1 (V3 m ρ) c 0))).symm.trans (W4_main_arg0 m ρ c)
theorem V3_arg2 (c : Dev nD) : V3 m ρ c main_arg2 = m ((c.tc : Thread nD τ).loc main_arg2) :=
  ((W4_arr m ρ c 3).trans (((dat1 (V3 m ρ) c).arrAt_in 3 rfl _).trans (A_eq1 (V3 m ρ) c 3))).symm.trans (W4_main_arg2 m ρ c)
theorem V3_arg3 (c : Dev nD) : V3 m ρ c main_arg3 = m ((c.tc : Thread nD τ).loc main_arg3) :=
  ((W4_arr m ρ c 4).trans (((dat1 (V3 m ρ) c).arrAt_in 4 rfl _).trans (A_eq1 (V3 m ρ) c 4))).symm.trans (W4_main_arg3 m ρ c)
theorem V3_arg4 (c : Dev nD) : V3 m ρ c main_arg4 = m ((c.tc : Thread nD τ).loc main_arg4) :=
  ((W4_arr m ρ c 5).trans (((dat1 (V3 m ρ) c).arrAt_in 5 rfl _).trans (A_eq1 (V3 m ρ) c 5))).symm.trans (W4_main_arg4 m ρ c)
theorem V3_arg5 (c : Dev nD) : V3 m ρ c main_arg5 = m ((c.tc : Thread nD τ).loc main_arg5) :=
  ((W4_arr m ρ c 6).trans (((dat1 (V3 m ρ) c).arrAt_in 6 rfl _).trans (A_eq1 (V3 m ρ) c 6))).symm.trans (W4_main_arg5 m ρ c)
theorem V3_arg6 (c : Dev nD) : V3 m ρ c main_arg6 = m ((c.tc : Thread nD τ).loc main_arg6) :=
  ((W4_arr m ρ c 7).trans (((dat1 (V3 m ρ) c).arrAt_in 7 rfl _).trans (A_eq1 (V3 m ρ) c 7))).symm.trans (W4_main_arg6 m ρ c)
theorem V3_arg7 (c : Dev nD) : V3 m ρ c main_arg7 = m ((c.tc : Thread nD τ).loc main_arg7) :=
  ((W4_arr m ρ c 8).trans (((dat1 (V3 m ρ) c).arrAt_in 8 rfl _).trans (A_eq1 (V3 m ρ) c 8))).symm.trans (W4_main_arg7 m ρ c)

end Cert.KernelIdeal.HostChain

end
-- ==== Proof.RefNode.lean ====
/-
  The reference program's result, read at an index.

  The reference computes, for every node row r and feature q, from h = x + a (a the summed incoming messages):
  a first dense layer with bias clamped below at zero, a second dense layer with bias, a normalisation of the row to
  mean zero and (ε-regularised) unit variance by two row sums, a gain and a shift, a per-node scale, a clamp below at
  zero and the residual x. This module reads the generated per-operation description of that program back, outermost
  operation first, and shows that on the extended reals its last stage is exactly the node stage of the specification,
  with the summed messages and the per-node scale column left as they are.
-/
import proofs.«127062_j5111011083034_1_alg».proof.Proof.Gen.ReferenceIdeal.Read
import proofs.«127062_j5111011083034_1_alg».proof.Proof.NodeSpec
import Idealize.ShloMosaic.Lib.ValueIdx
import Idealize.ShloMosaic.Lib.Pipeline.Value
import Idealize.ShloMosaic.PureOps.Ideal.Laws

noncomputable section
namespace Cert.RefNode
open Idealize.ShloMosaic Idealize.ShloMosaic.ValueIdx Cert.ReferenceIdeal Cert.ReferenceIdeal.Read

/-! ### Index equations: where each layout operation and each contraction reads its operands -/

theorem lidx17 (r : Fin 50000) (j : Fin 256) (k : Fin 128) : lidx_main_v17 (ix2 r j) k = ix2 r k := by
  funext a; apply Fin.ext; match a with | ⟨0, _⟩ => rfl | ⟨1, _⟩ => rfl

theorem ridx17 (r : Fin 50000) (j : Fin 256) (k : Fin 128) : ridx_main_v17 (ix2 r j) k = ix2 k j := by
  funext a; apply Fin.ext; match a with | ⟨0, _⟩ => rfl | ⟨1, _⟩ => rfl

theorem idx19 (r : Fin 50000) (j : Fin 256) : idx_main_v18 (idx_main_v19 (ix2 r j)) = ix1 j := by
  funext a; apply Fin.ext; match a with | ⟨0, _⟩ => rfl

theorem lidx22 (r : Fin 50000) (d : Fin 128) (j : Fin 256) : lidx_main_v22 (ix2 r d) j = ix2 r j := by
  funext a; apply Fin.ext; match a with | ⟨0, _⟩ => rfl | ⟨1, _⟩ => rfl

theorem ridx22 (r : Fin 50000) (d : Fin 128) (j : Fin 256) : ridx_main_v22 (ix2 r d) j = ix2 j d := by
  funext a; apply Fin.ext; match a with | ⟨0, _⟩ => rfl | ⟨1, _⟩ => rfl

theorem idx24 (r : Fin 50000) (d : Fin 128) : idx_main_v23 (idx_main_v24 (ix2 r d)) = ix1 d := by
  funext a; apply Fin.ext; match a with | ⟨0, _⟩ => rfl

/-! ### The two dense layers -/

/-- The clamped first layer at `(r, j)` is hidden unit `j` of row `r`. -/
theorem v21_eq (x0 : (⟨S50000x128, .f32⟩ : BufTy).Contents (Elt Ideal)) (x1 : (⟨S600000x128, .f32⟩ : BufTy).Contents (Elt Ideal))
    (x2 : (⟨S128x256, .f32⟩ : BufTy).Contents (Elt Ideal)) (x3 : (⟨S256, .f32⟩ : BufTy).Contents (Elt Ideal))
    (x8 : (⟨S2x600000, .i32⟩ : BufTy).Contents (Elt Ideal)) (r : Fin 50000) (j : Fin 256) :
    val_main_v21 (F := Ideal) x0 x1 x2 x3 x8 (ix2 r j)
      = Cert.NodeSpec.hidden (fun k => x0 (ix2 r k)) (fun k => val_main_v15 (F := Ideal) x0 x1 x8 (ix2 r k))
          (fun k j => x2 (ix2 k j)) (fun j => x3 (ix1 j)) j := by
  rw [val_main_v21_apply, val_main_v20_apply, val_main_v17_apply, val_main_v19_apply, val_main_v18_apply,
    val_main_call1_v0_apply, val_main_call1_cst_apply, idx19]
  simp only [lidx17, ridx17, val_main_v16_apply]
  generalize val_main_v15 (F := Ideal) x0 x1 x8 = agg
  rfl

/-- The second layer at `(r, d)` is second-layer unit `d` of row `r`. -/
theorem v25_eq (x0 : (⟨S50000x128, .f32⟩ : BufTy).Contents (Elt Ideal)) (x1 : (⟨S600000x128, .f32⟩ : BufTy).Contents (Elt Ideal))
    (x2 : (⟨S128x256, .f32⟩ : BufTy).Contents (Elt Ideal)) (x3 : (⟨S256, .f32⟩ : BufTy).Contents (Elt Ideal))
    (x4 : (⟨S256x128, .f32⟩ : BufTy).Contents (Elt Ideal)) (x5 : (⟨S128, .f32⟩ : BufTy).Contents (Elt Ideal))
    (x8 : (⟨S2x600000, .i32⟩ : BufTy).Contents (Elt Ideal)) (r : Fin 50000) (d : Fin 128) :
    val_main_v25 (F := Ideal) x0 x1 x2 x3 x4 x5 x8 (ix2 r d)
      = Cert.NodeSpec.lin (fun k => x0 (ix2 r k)) (fun k => val_main_v15 (F := Ideal) x0 x1 x8 (ix2 r k))
          (fun k j => x2 (ix2 k j)) (fun j => x3 (ix1 j)) (fun j d => x4 (ix2 j d)) (fun d => x5 (ix1 d)) d := by
  rw [val_main_v25_apply, val_main_v22_apply, val_main_v24_apply, val_main_v23_apply, idx24]
  simp only [lidx22, ridx22, v21_eq]
  generalize val_main_v15 (F := Ideal) x0 x1 x8 = agg
  rfl

/-! ### The row statistics -/

theorem idx26 (r : Fin 50000) (u : Fin 1) (k : Fin 128) : idx_main_v26 (idx_main_v27 (ix2 r u)) k = ix2 r k := by
  funext a; apply Fin.ext; match a with | ⟨0, _⟩ => rfl | ⟨1, _⟩ => rfl

theorem idx33 (r : Fin 50000) (u : Fin 1) (k : Fin 128) : idx_main_v33 (idx_main_v34 (ix2 r u)) k = ix2 r k := by
  funext a; apply Fin.ext; match a with | ⟨0, _⟩ => rfl | ⟨1, _⟩ => rfl

theorem idx30 (r : Fin 50000) (d : Fin 128) : idx_main_v30 (ix2 r d) = ix2 r (0 : Fin 1) := by
  funext a; apply Fin.ext; match a with | ⟨0, _⟩ => rfl | ⟨1, _⟩ => rfl

theorem idx37 (r : Fin 50000) (d : Fin 128) : idx_main_v37 (ix2 r d) = ix2 r (0 : Fin 1) := by
  funext a; apply Fin.ext; match a with | ⟨0, _⟩ => rfl | ⟨1, _⟩ => rfl

theorem idx42 (r : Fin 50000) (d : Fin 128) : idx_main_v42 (ix2 r d) = ix2 r (0 : Fin 1) := by
  funext a; apply Fin.ext; match a with | ⟨0, _⟩ => rfl | ⟨1, _⟩ => rfl

/-- The row mean: the row sum starts from the zero word, which is the extended real zero, and is divided by the word
    of 128. -/
theorem v29_eq (x0 : (⟨S50000x128, .f32⟩ : BufTy).Contents (Elt Ideal)) (x1 : (⟨S600000x128, .f32⟩ : BufTy).Contents (Elt Ideal))
    (x2 : (⟨S128x256, .f32⟩ : BufTy).Contents (Elt Ideal)) (x3 : (⟨S256, .f32⟩ : BufTy).Contents (Elt Ideal))
    (x4 : (⟨S256x128, .f32⟩ : BufTy).Contents (Elt Ideal)) (x5 : (⟨S128, .f32⟩ : BufTy).Contents (Elt Ideal))
    (x8 : (⟨S2x600000, .i32⟩ : BufTy).Contents (Elt Ideal)) (r : Fin 50000) (u : Fin 1) :
    val_main_v29 (F := Ideal) x0 x1 x2 x3 x4 x5 x8 (ix2 r u)
      = Cert.NodeSpec.mean128 (fun d => val_main_v25 (F := Ideal) x0 x1 x2 x3 x4 x5 x8 (ix2 r d)) := by
  rw [val_main_v29_apply, val_main_v27_apply, val_main_v26_apply, val_main_v28_apply, val_main_cst_2_apply,
    val_main_cst_1_apply, Ideal.ofBits_def, Ideal.ofBits_def, Ideal.ofBits_zero_f32, zero_add]
  simp only [idx26]
  generalize val_main_v25 (F := Ideal) x0 x1 x2 x3 x4 x5 x8 = v
  rfl

/-- The row's mean squared deviation from its mean. -/
theorem v36_eq (x0 : (⟨S50000x128, .f32⟩ : BufTy).Contents (Elt Ideal)) (x1 : (⟨S600000x128, .f32⟩ : BufTy).Contents (Elt Ideal))
    (x2 : (⟨S128x256, .f32⟩ : BufTy).Contents (Elt Ideal)) (x3 : (⟨S256, .f32⟩ : BufTy).Contents (Elt Ideal))
    (x4 : (⟨S256x128, .f32⟩ : BufTy).Contents (Elt Ideal)) (x5 : (⟨S128, .f32⟩ : BufTy).Contents (Elt Ideal))
    (x8 : (⟨S2x600000, .i32⟩ : BufTy).Contents (Elt Ideal)) (r : Fin 50000) (u : Fin 1) :
    val_main_v36 (F := Ideal) x0 x1 x2 x3 x4 x5 x8 (ix2 r u)
      = Cert.NodeSpec.mean128 (fun d =>
          (val_main_v25 (F := Ideal) x0 x1 x2 x3 x4 x5 x8 (ix2 r d)
              - Cert.NodeSpec.mean128 (fun d => val_main_v25 (F := Ideal) x0 x1 x2 x3 x4 x5 x8 (ix2 r d)))
            * (val_main_v25 (F := Ideal) x0 x1 x2 x3 x4 x5 x8 (ix2 r d)
              - Cert.NodeSpec.mean128 (fun d => val_main_v25 (F := Ideal) x0 x1 x2 x3 x4 x5 x8 (ix2 r d)))) := by
  rw [val_main_v36_apply, val_main_v34_apply, val_main_v33_apply, val_main_v35_apply, val_main_cst_4_apply,
    val_main_cst_3_apply, Ideal.ofBits_def, Ideal.ofBits_def, Ideal.ofBits_zero_f32, zero_add]
  simp only [idx33, val_main_v32_apply, val_main_v31_apply, val_main_v30_apply, idx30, v29_eq]
  generalize val_main_v25 (F := Ideal) x0 x1 x2 x3 x4 x5 x8 = v
  rfl

/-- The normalised entry `(r, q)`. -/
theorem v43_eq (x0 : (⟨S50000x128, .f32⟩ : BufTy).Contents (Elt Ideal)) (x1 : (⟨S600000x128, .f32⟩ : BufTy).Contents (Elt Ideal))
    (x2 : (⟨S128x256, .f32⟩ : BufTy).Contents (Elt Ideal)) (x3 : (⟨S256, .f32⟩ : BufTy).Contents (Elt Ideal))
    (x4 : (⟨S256x128, .f32⟩ : BufTy).Contents (Elt Ideal)) (x5 : (⟨S128, .f32⟩ : BufTy).Contents (Elt Ideal))
    (x8 : (⟨S2x600000, .i32⟩ : BufTy).Contents (Elt Ideal)) (r : Fin 50000) (q : Fin 128) :
    val_main_v43 (F := Ideal) x0 x1 x2 x3 x4 x5 x8 (ix2 r q)
      = Cert.NodeSpec.normed (fun d => val_main_v25 (F := Ideal) x0 x1 x2 x3 x4 x5 x8 (ix2 r d)) q := by
  rw [val_main_v43_apply, val_main_v38_apply, val_main_v37_apply, val_main_v42_apply, val_main_v41_apply,
    val_main_v40_apply, val_main_v39_apply, val_main_cst_5_apply, idx37, idx42, v29_eq, v36_eq]
  generalize val_main_v25 (F := Ideal) x0 x1 x2 x3 x4 x5 x8 = v
  rfl

/-! ### The output entry -/

theorem idx45 (r : Fin 50000) (q : Fin 128) : idx_main_v44 (idx_main_v45 (ix2 r q)) = ix1 q := by
  funext a; apply Fin.ext; match a with | ⟨0, _⟩ => rfl

theorem idx48 (r : Fin 50000) (q : Fin 128) : idx_main_v47 (idx_main_v48 (ix2 r q)) = ix1 q := by
  funext a; apply Fin.ext; match a with | ⟨0, _⟩ => rfl

theorem idx65 (r : Fin 50000) (q : Fin 128) : idx_main_v65 (ix2 r q) = ix2 r (0 : Fin 1) := by
  funext a; apply Fin.ext; match a with | ⟨0, _⟩ => rfl | ⟨1, _⟩ => rfl

/-- The reference's result is the specification's node stage of the program's arguments, of the summed messages and of
    the per-node scale column. -/
theorem ref_is_nodeOut (x0 : (⟨S50000x128, .f32⟩ : BufTy).Contents (Elt Ideal)) (x1 : (⟨S600000x128, .f32⟩ : BufTy).Contents (Elt Ideal))
    (x2 : (⟨S128x256, .f32⟩ : BufTy).Contents (Elt Ideal)) (x3 : (⟨S256, .f32⟩ : BufTy).Contents (Elt Ideal))
    (x4 : (⟨S256x128, .f32⟩ : BufTy).Contents (Elt Ideal)) (x5 x6 x7 : (⟨S128, .f32⟩ : BufTy).Contents (Elt Ideal))
    (x8 : (⟨S2x600000, .i32⟩ : BufTy).Contents (Elt Ideal)) (x9 : (⟨S50000, .i32⟩ : BufTy).Contents (Elt Ideal)) :
    val_main_v68 (F := Ideal) x0 x1 x2 x3 x4 x5 x6 x7 x8 x9
      = Cert.NodeSpec.nodeOut x0 (val_main_v15 (F := Ideal) x0 x1 x8) (val_main_v64 (F := Ideal) x9) x2 x3 x4 x5 x6 x7 := by
  funext i
  obtain ⟨r, q, rfl⟩ : ∃ (r : Fin 50000) (q : Fin 128), i = ix2 r q := ⟨i 0, i 1, eq_ix2 i⟩
  have hlin : (fun d => val_main_v25 (F := Ideal) x0 x1 x2 x3 x4 x5 x8 (ix2 r d))
      = Cert.NodeSpec.lin (fun k => x0 (ix2 r k)) (fun k => val_main_v15 (F := Ideal) x0 x1 x8 (ix2 r k))
          (fun k j => x2 (ix2 k j)) (fun j => x3 (ix1 j)) (fun j d => x4 (ix2 j d)) (fun d => x5 (ix1 d)) :=
    funext fun d => v25_eq x0 x1 x2 x3 x4 x5 x8 r d
  rw [Cert.NodeSpec.nodeOut_apply, val_main_v68_apply, val_main_v67_apply, val_main_v66_apply, val_main_v65_apply,
    val_main_v49_apply, val_main_v48_apply, val_main_v47_apply, val_main_v46_apply, val_main_v45_apply,
    val_main_v44_apply, val_main_call2_v0_apply, val_main_call2_cst_apply, idx45, idx48, idx65, v43_eq, hlin]
  generalize val_main_v15 (F := Ideal) x0 x1 x8 = agg
  generalize val_main_v64 (F := Ideal) x9 = sc
  rfl

end Cert.RefNode
end
-- ==== Proof.lean ====
/-
  The five claims about the graph-convolution block.

  Both programs compute, for every node row, the per-row function of the specification (NodeSpec): a two-layer
  perceptron at the node's features plus its summed incoming messages, a normalisation of the 128 lanes, gain and
  shift, the node's graph scale, a clamp at zero and the residual. The messages are `max (source features + edge
  features) 0` per edge, summed into destination rows; the scale is the reciprocal square root of the node's graph
  size. The kernel program computes the messages in a first stage tiled over 75 blocks of edges and the per-row
  function in a second stage tiled over 25 blocks of nodes, with the gathers, the summation into rows and the scales
  done by host operations around the stages; the reference does everything by host operations over whole arrays. On the
  extended reals a change of float format is the identity, a matrix product into a zero accumulator and a lane sum are
  the plain sums, and the tiling is invisible, so the two results are the same function of the arguments, entry by
  entry. No law that needs finite operands is used: the precondition is never opened.

  The frames of the two kernel programs are the generated ones; the reference's frame is its generated run with the
  result dropped; the idealization rewrote no operation, so there is nothing to preserve beyond the text itself.
-/
import proofs.«127062_j5111011083034_1_alg».proof.Defs
import proofs.«127062_j5111011083034_1_alg».proof.Proof.Gen.Kernel
import proofs.«127062_j5111011083034_1_alg».proof.Proof.Gen.Kernel.Skeleton
import proofs.«127062_j5111011083034_1_alg».proof.Proof.Gen.Kernel.Launch
import proofs.«127062_j5111011083034_1_alg».proof.Proof.Gen.Kernel.Points
import proofs.«127062_j5111011083034_1_alg».proof.Proof.Gen.Kernel.Frame
import proofs.«127062_j5111011083034_1_alg».proof.Proof.Gen.KernelIdeal
import proofs.«127062_j5111011083034_1_alg».proof.Proof.Gen.KernelIdeal.Skeleton
import proofs.«127062_j5111011083034_1_alg».proof.Proof.Gen.KernelIdeal.Launch
import proofs.«127062_j5111011083034_1_alg».proof.Proof.Gen.KernelIdeal.Points
import proofs.«127062_j5111011083034_1_alg».proof.Proof.Gen.KernelIdeal.Frame
import proofs.«127062_j5111011083034_1_alg».proof.Proof.Gen.ReferenceIdeal
import proofs.«127062_j5111011083034_1_alg».proof.Proof.Gen.Pre_finite_inputs
import proofs.«127062_j5111011083034_1_alg».proof.Proof.Gen.ReferenceIdeal.Run
import proofs.«127062_j5111011083034_1_alg».proof.Proof.Gen.ReferenceIdeal.Read
import proofs.«127062_j5111011083034_1_alg».proof.Proof.NodeSpec
import proofs.«127062_j5111011083034_1_alg».proof.Proof.KernelRun
import proofs.«127062_j5111011083034_1_alg».proof.Proof.NodeValue
import proofs.«127062_j5111011083034_1_alg».proof.Proof.HostChain
import proofs.«127062_j5111011083034_1_alg».proof.Proof.RefNode
import Idealize.ShloMosaic.Adequacy
import Idealize.ShloMosaic.Init

noncomputable section

namespace Cert.Proof

open Idealize.ShloMosaic Idealize.ShloMosaic.TcCoe Idealize.SL.Sem

/-- The common result: the specification's node stage of the node features, the reference's summed messages and scale
    column of the arguments, and the six parameter arrays. -/
abbrev result (m : (ℓ : Loc Cert.KernelIdeal.nD Cert.KernelIdeal.τ Cert.KernelIdeal.sig) → Buf (Elt Ideal) ℓ)
    (c : Dev Cert.KernelIdeal.nD) :
    Buf (Elt Ideal) ((c.tc : Thread Cert.KernelIdeal.nD Cert.KernelIdeal.τ).loc Cert.KernelIdeal.main_v30) :=
  Cert.NodeSpec.nodeOut
    (m ((c.tc : Thread Cert.KernelIdeal.nD Cert.KernelIdeal.τ).loc Cert.KernelIdeal.main_arg0))
    (Cert.ReferenceIdeal.Read.val_main_v15 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg8)))
    (Cert.ReferenceIdeal.Read.val_main_v64 (F := Ideal)
      (m ((c.tc : Thread Cert.KernelIdeal.nD Cert.KernelIdeal.τ).loc Cert.KernelIdeal.main_arg9)))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))

/-- What the kernel program's fold leaves at the result buffer is the common result: the node stage's output array is
    the node stage's function of what the stage finds, and what it finds are the arguments as launched, the reference's
    summed messages and the reference's scale column. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W4 m ρ c (Proc.devRef .tc Cert.KernelIdeal.main_v30) = result m c := by
  rw [Cert.KernelIdeal.RunValue.W4_result, Cert.KernelIdeal.NodeValue.final (Cert.KernelIdeal.Gen.V3 m ρ) c]
  unfold Cert.KernelIdeal.NodeValue.nodeG result
  rw [Cert.KernelIdeal.HostChain.V3_v14, Cert.KernelIdeal.HostChain.V3_v29, Cert.KernelIdeal.HostChain.V3_arg0,
    Cert.KernelIdeal.HostChain.V3_arg2, Cert.KernelIdeal.HostChain.V3_arg3, Cert.KernelIdeal.HostChain.V3_arg4,
    Cert.KernelIdeal.HostChain.V3_arg5, Cert.KernelIdeal.HostChain.V3_arg6, Cert.KernelIdeal.HostChain.V3_arg7]

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the common result of the (agreeing) arguments. -/
theorem algebraic : Cert.algebraic_KernelIdeal_ReferenceIdeal := by
  intro m ρ m' ρ' _ hagree
  refine ⟨fun c => result m c, ?_, ?_⟩
  · exact (θ_run Cert.KernelIdeal.defs _ _).mono (fun _ h c => ⟨(h c).1.trans (kernel_result m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, -⟩ := hagree c
    rw [Cert.ReferenceIdeal.Read.val_main_v68_eq, Cert.RefNode.ref_is_nodeOut, a0, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
